-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x5 : Shape := ⟨2, ![4000000, 5]⟩
abbrev S_ : Shape := ⟨0, ![]⟩

class Facts : Prop where
  bcast_S_S4000000x5 : S_.BroadcastsInDim S4000000x5 (![] : Fin 0 → Fin S4000000x5.rank)
  reducesTo_S4000000x5_S_d0_1 : S4000000x5.ReducesTo [0, 1] S_
  h_S_ : 0 < S_.numel

variable [Facts]

def fn {F : FTy → Type} [FloatOps F] (main_arg0 : FVec F S4000000x5 .f32) (main_arg1 : FVec F S4000000x5 .f32) : IVec S_ 1 :=
  let main_v0 : FVec F S4000000x5 .f32 := Host.absf main_arg0
  let main_cst : FVec F S_ .f32 := constant S_ .f32 0x7F800000#32
  let main_v1 : FVec F S4000000x5 .f32 := broadcastInDim S4000000x5 ![] bcast_S_S4000000x5 main_cst
  let main_v2 : IVec S4000000x5 1 := cmpf .olt main_v0 main_v1
  let main_c : IVec S_ 1 := constantI S_ 1 1#1
  let main_v3 : IVec S_ 1 := (fun x v => Host.reduce IntOp.andi x v reducesTo_S4000000x5_S_d0_1 h_S_) main_v2 main_c
  let main_v4 : FVec F S4000000x5 .f32 := Host.absf main_arg1
  let main_cst_0 : FVec F S_ .f32 := constant S_ .f32 0x7F800000#32
  let main_v5 : FVec F S4000000x5 .f32 := broadcastInDim S4000000x5 ![] bcast_S_S4000000x5 main_cst_0
  let main_v6 : IVec S4000000x5 1 := cmpf .olt main_v4 main_v5
  let main_c_1 : IVec S_ 1 := constantI S_ 1 1#1
  let main_v7 : IVec S_ 1 := (fun x v => Host.reduce IntOp.andi x v reducesTo_S4000000x5_S_d0_1 h_S_) main_v6 main_c_1
  let main_v8 : IVec S_ 1 := andi main_v3 main_v7
  main_v8
-- ==== Kernel.lean ====
abbrev S4000000x5 : Shape := ⟨2, ![4000000, 5]⟩
abbrev S2x1x128 : Shape := ⟨3, ![2, 1, 128]⟩
abbrev S16000x5 : Shape := ⟨2, ![16000, 5]⟩
abbrev S1x1x128 : Shape := ⟨3, ![1, 1, 128]⟩
abbrev S1x128 : Shape := ⟨2, ![1, 128]⟩
abbrev S5x16000 : Shape := ⟨2, ![5, 16000]⟩
abbrev S625x128 : Shape := ⟨2, ![625, 128]⟩
abbrev S125x128 : Shape := ⟨2, ![125, 128]⟩
abbrev S128 : Shape := ⟨1, ![128]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S4000000x5, .f32⟩
  | .hbm, ⟨1, _⟩ => ⟨S4000000x5, .f32⟩
  | .hbm, ⟨2, _⟩ => ⟨S2x1x128, .f32⟩
  | .hbm, ⟨3, _⟩ => ⟨S_, .f32⟩
  | .hbm, ⟨4, _⟩ => ⟨S_, .f32⟩
  | .local _ .vmem, ⟨0, _⟩ => ⟨S16000x5, .f32⟩
  | .local _ .vmem, ⟨1, _⟩ => ⟨S16000x5, .f32⟩
  | .local _ .vmem, ⟨2, _⟩ => ⟨S16000x5, .f32⟩
  | .local _ .vmem, ⟨3, _⟩ => ⟨S16000x5, .f32⟩
  | .local _ .vmem, ⟨4, _⟩ => ⟨S1x1x128, .f32⟩
  | .local _ .vmem, ⟨5, _⟩ => ⟨S1x1x128, .f32⟩
  | .local _ .vmem, ⟨6, _⟩ => ⟨S1x128, .f32⟩
  | _, _ => ⟨S4000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v134 : BitVec 1 := Scalar.cmpi .eq arg1 c124_i32
  let v135 : BitVec 32 := Scalar.extui v134
  let c0_i32_30 : BitVec 32 := 0#32
  let v136 : BitVec 1 := Scalar.cmpi .ne v135 c0_i32_30
  v136

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S16000x5_S16000x5_0_0 : ∀ a, (![0, 0] : Fin 2 → Nat) a + S16000x5.size a ≤ S16000x5.size a
  h_S16000x5 : 0 < S16000x5.numel
  transposes_S16000x5_p1_0_S5x16000 : S16000x5.Transposes [1, 0] S5x16000
  shapeCasts_S5x16000_S625x128 : S5x16000.ShapeCasts S625x128
  slices_S625x128_o0_0_S125x128 : S625x128.Slices ![0, 0] S125x128
  slices_S625x128_o125_0_S125x128 : S625x128.Slices ![125, 0] S125x128
  slices_S625x128_o250_0_S125x128 : S625x128.Slices ![250, 0] S125x128
  slices_S625x128_o375_0_S125x128 : S625x128.Slices ![375, 0] S125x128
  slices_S625x128_o500_0_S125x128 : S625x128.Slices ![500, 0] S125x128
  reduces_S125x128_S128 : S125x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S2x1x128_S_d0_1_2 : S2x1x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x5.size a ≤ S4000000x5.size a
  hwx0_0 : ∀ i : grid0.Coords, EltTy.bits .f32 = 32 ∨ (Rect.block (s := S4000000x5) S16000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x5.size a ≤ S4000000x5.size a
  hwx0_1 : ∀ i : grid0.Coords, EltTy.bits .f32 = 32 ∨ (Rect.block (s := S4000000x5) S16000x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)

variable [Facts₀]

abbrev win0_0 : Pipeline.Window sig grid0 :=
  Pipeline.Window.ofSpec (Memref.whole main_arg0) S16000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4000000x5 : Shape := ⟨2, ![4000000, 5]⟩
abbrev S4000000x1 : Shape := ⟨2, ![4000000, 1]⟩
abbrev S4000000 : Shape := ⟨1, ![4000000]⟩
abbrev S_ : Shape := ⟨0, ![]⟩
abbrev S4000000x2 : Shape := ⟨2, ![4000000, 2]⟩

abbrev nBuf : Space → Nat
  | .hbm => 152
  | .vmem => 0
  | .smem => 0
  | _ => 0

abbrev hbmTy0_0 (i : Nat) : BufTy := match i % 128 with
  | 0 => ⟨S4000000x5, .f32⟩
  | 1 => ⟨S4000000x5, .f32⟩
  | 2 => ⟨S4000000x1, .f32⟩
  | 3 => ⟨S4000000, .f32⟩
  | 4 => ⟨S4000000x1, .f32⟩
  | 5 => ⟨S4000000, .f32⟩
  | 6 => ⟨S4000000, .f32⟩
  | 7 => ⟨S4000000x1, .f32⟩
  | 8 => ⟨S4000000, .f32⟩
  | 9 => ⟨S4000000x1, .f32⟩
  | 10 => ⟨S4000000, .f32⟩
  | 11 => ⟨S4000000, .f32⟩
  | 12 => ⟨S4000000x1, .f32⟩
  | 13 => ⟨S4000000, .f32⟩
  | 14 => ⟨S4000000, .f32⟩
  | 15 => ⟨S4000000, .f32⟩
  | 16 => ⟨S4000000, .f32⟩
  | 17 => ⟨S4000000, .f32⟩
  | 18 => ⟨S_, .f32⟩
  | 19 => ⟨S4000000, .f32⟩
  | 20 => ⟨S4000000, .f32⟩
  | 21 => ⟨S4000000, .f32⟩
  | 22 => ⟨S_, .f32⟩
  | 23 => ⟨S4000000, .f32⟩
  | 24 => ⟨S4000000, .f32⟩
  | 25 => ⟨S4000000, .f32⟩
  | 26 => ⟨S4000000, .f32⟩
  | 27 => ⟨S4000000, .f32⟩
  | 28 => ⟨S4000000, .f32⟩
  | 29 => ⟨S4000000, .f32⟩
  | 30 => ⟨S4000000, .f32⟩
  | 31 => ⟨S4000000, .f32⟩
  | 32 => ⟨S4000000, .f32⟩
  | 33 => ⟨S4000000, .f32⟩
  | 34 => ⟨S4000000, .f32⟩
  | 35 => ⟨S4000000x2, .f32⟩
  | 36 => ⟨S4000000x1, .f32⟩
  | 37 => ⟨S4000000, .f32⟩
  | 38 => ⟨S4000000x1, .f32⟩
  | 39 => ⟨S4000000, .f32⟩
  | 40 => ⟨S4000000, .f32⟩
  | 41 => ⟨S4000000x1, .f32⟩
  | 42 => ⟨S4000000, .f32⟩
  | 43 => ⟨S4000000x1, .f32⟩
  | 44 => ⟨S4000000, .f32⟩
  | 45 => ⟨S4000000, .f32⟩
  | 46 => ⟨S4000000x1, .f32⟩
  | 47 => ⟨S4000000, .f32⟩
  | 48 => ⟨S4000000, .f32⟩
  | 49 => ⟨S4000000, .f32⟩
  | 50 => ⟨S4000000, .f32⟩
  | 51 => ⟨S4000000, .f32⟩
  | 52 => ⟨S_, .f32⟩
  | 53 => ⟨S4000000, .f32⟩
  | 54 => ⟨S4000000, .f32⟩
  | 55 => ⟨S4000000, .f32⟩
  | 56 => ⟨S_, .f32⟩
  | 57 => ⟨S4000000, .f32⟩
  | 58 => ⟨S4000000, .f32⟩
  | 59 => ⟨S4000000, .f32⟩
  | 60 => ⟨S4000000, .f32⟩
  | 61 => ⟨S4000000, .f32⟩
  | 62 => ⟨S4000000, .f32⟩
  | 63 => ⟨S4000000, .f32⟩
  | 64 => ⟨S4000000, .f32⟩
  | 65 => ⟨S4000000, .f32⟩
  | 66 => ⟨S4000000, .f32⟩
  | 67 => ⟨S4000000, .f32⟩
  | 68 => ⟨S4000000, .f32⟩
  | 69 => ⟨S4000000x2, .f32⟩
  | 70 => ⟨S_, .f32⟩
  | 71 => ⟨S4000000, .f32⟩
  | 72 => ⟨S4000000, .f32⟩
  | 73 => ⟨S_, .f32⟩
  | 74 => ⟨S4000000, .f32⟩
  | 75 => ⟨S4000000, .f32⟩
  | 76 => ⟨S_, .f32⟩
  | 77 => ⟨S4000000, .f32⟩
  | 78 => ⟨S4000000, .f32⟩
  | 79 => ⟨S_, .f32⟩
  | 80 => ⟨S4000000, .f32⟩
  | 81 => ⟨S4000000, .f32⟩
  | 82 => ⟨S4000000, .f32⟩
  | 83 => ⟨S4000000, .f32⟩
  | 84 => ⟨S4000000, .f32⟩
  | 85 => ⟨S4000000x1, .f32⟩
  | 86 => ⟨S4000000, .f32⟩
  | 87 => ⟨S4000000x1, .f32⟩
  | 88 => ⟨S4000000, .f32⟩
  | 89 => ⟨S4000000, .f32⟩
  | 90 => ⟨S4000000x1, .f32⟩
  | 91 => ⟨S4000000, .f32⟩
  | 92 => ⟨S4000000x1, .f32⟩
  | 93 => ⟨S4000000, .f32⟩
  | 94 => ⟨S4000000, .f32⟩
  | 95 => ⟨S4000000, .f32⟩
  | 96 => ⟨S4000000, .f32⟩
  | 97 => ⟨S4000000, .f32⟩
  | 98 => ⟨S4000000, .f32⟩
  | 99 => ⟨S4000000, .f32⟩
  | 100 => ⟨S_, .f32⟩
  | 101 => ⟨S4000000, .f32⟩
  | 102 => ⟨S4000000, .f32⟩
  | 103 => ⟨S4000000, .f32⟩
  | 104 => ⟨S4000000, .f32⟩
  | 105 => ⟨S4000000, .f32⟩
  | 106 => ⟨S4000000, .f32⟩
  | 107 => ⟨S4000000, .f32⟩
  | 108 => ⟨S4000000, .f32⟩
  | 109 => ⟨S4000000, .f32⟩
  | 110 => ⟨S_, .f32⟩
  | 111 => ⟨S4000000, .f32⟩
  | 112 => ⟨S4000000, .f32⟩
  | 113 => ⟨S4000000, .f32⟩
  | 114 => ⟨S4000000, .f32⟩
  | 115 => ⟨S4000000, .f32⟩
  | 116 => ⟨S4000000, .f32⟩
  | 117 => ⟨S4000000, .f32⟩
  | 118 => ⟨S4000000, .f32⟩
  | 119 => ⟨S4000000, .f32⟩
  | 120 => ⟨S_, .f32⟩
  | 121 => ⟨S4000000, .f32⟩
  | 122 => ⟨S4000000, .f32⟩
  | 123 => ⟨S4000000, .f32⟩
  | 124 => ⟨S4000000, .f32⟩
  | 125 => ⟨S4000000, .f32⟩
  | 126 => ⟨S_, .f32⟩
  | 127 => ⟨S4000000, .f32⟩
  | _ => ⟨S4000000x5, .f32⟩

abbrev hbmTy0_1 (i : Nat) : BufTy := match i % 128 with
  | 0 => ⟨S4000000, .f32⟩
  | 1 => ⟨S4000000, .f32⟩
  | 2 => ⟨S4000000, .f32⟩
  | 3 => ⟨S_, .f32⟩
  | 4 => ⟨S_, .f32⟩
  | 5 => ⟨S_, .f32⟩
  | 6 => ⟨S4000000, .f32⟩
  | 7 => ⟨S4000000, .f32⟩
  | 8 => ⟨S_, .f32⟩
  | 9 => ⟨S4000000, .f32⟩
  | 10 => ⟨S4000000, .f32⟩
  | 11 => ⟨S4000000, .f32⟩
  | 12 => ⟨S4000000, .f32⟩
  | 13 => ⟨S_, .f32⟩
  | 14 => ⟨S4000000, .f32⟩
  | 15 => ⟨S4000000, .f32⟩
  | 16 => ⟨S_, .f32⟩
  | 17 => ⟨S4000000, .f32⟩
  | 18 => ⟨S4000000, .f32⟩
  | 19 => ⟨S_, .f32⟩
  | 20 => ⟨S4000000, .f32⟩
  | 21 => ⟨S4000000, .f32⟩
  | 22 => ⟨S_, .f32⟩
  | 23 => ⟨S_, .f32⟩
  | _ => ⟨S4000000x5, .f32⟩

abbrev hbmTy (i : Nat) : BufTy := match i / 128 with
  | 0 => hbmTy0_0 i
  | 1 => hbmTy0_1 i
  | _ => ⟨S4000000x5, .f32⟩

abbrev bufTy : (tb : Table) → Fin (tcTables nBuf tb) → BufTy
  | .hbm, ⟨i, _⟩ => hbmTy i
  | _, _ => ⟨S4000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_cst_1 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_cst_2 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_cst_3 : Ref sig .tc := ⟨.hbm, 70, rfl⟩
abbrev main_v64 : Ref sig .tc := ⟨.hbm, 71, rfl⟩
abbrev main_v65 : Ref sig .tc := ⟨.hbm, 72, rfl⟩
abbrev main_cst_4 : Ref sig .tc := ⟨.hbm, 73, rfl⟩
abbrev main_v66 : Ref sig .tc := ⟨.hbm, 74, rfl⟩
abbrev main_v67 : Ref sig .tc := ⟨.hbm, 75, rfl⟩
abbrev main_cst_5 : Ref sig .tc := ⟨.hbm, 76, rfl⟩
abbrev main_v68 : Ref sig .tc := ⟨.hbm, 77, rfl⟩
abbrev main_v69 : Ref sig .tc := ⟨.hbm, 78, rfl⟩
abbrev main_cst_6 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_cst_7 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_cst_8 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_cst_9 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_cst_10 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_cst_11 : Ref sig .tc := ⟨.hbm, 131, rfl⟩
abbrev main_cst_12 : Ref sig .tc := ⟨.hbm, 132, rfl⟩
abbrev main_call0_v0 : Ref sig .tc := ⟨.hbm, 133, rfl⟩
abbrev main_call0_v1 : Ref sig .tc := ⟨.hbm, 134, rfl⟩
abbrev main_call0_v2 : Ref sig .tc := ⟨.hbm, 135, rfl⟩
abbrev main_call0_v3 : Ref sig .tc := ⟨.hbm, 136, rfl⟩
abbrev main_call0_v4 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_cst_13 : Ref sig .tc := ⟨.hbm, 141, rfl⟩
abbrev main_v120 : Ref sig .tc := ⟨.hbm, 142, rfl⟩
abbrev main_v121 : Ref sig .tc := ⟨.hbm, 143, rfl⟩
abbrev main_cst_14 : Ref sig .tc := ⟨.hbm, 144, rfl⟩
abbrev main_v122 : Ref sig .tc := ⟨.hbm, 145, rfl⟩
abbrev main_v123 : Ref sig .tc := ⟨.hbm, 146, rfl⟩
abbrev main_cst_15 : Ref sig .tc := ⟨.hbm, 147, rfl⟩
abbrev main_v124 : Ref sig .tc := ⟨.hbm, 148, rfl⟩
abbrev main_v125 : Ref sig .tc := ⟨.hbm, 149, rfl⟩
abbrev main_cst_16 : Ref sig .tc := ⟨.hbm, 150, rfl⟩
abbrev main_v126 : Ref sig .tc := ⟨.hbm, 151, rfl⟩

abbrev nD : Nat := 1
abbrev τ : Topo := Topo.v7x

variable {F : FTy → Type} [FloatOps F]

class Facts₀ : Prop where
  slices_S4000000x5_S4000000x1_0_2 : S4000000x5.Slices ![0, 2] S4000000x1
  shapeCasts_S4000000x1_S4000000 : S4000000x1.ShapeCasts S4000000
  slices_S4000000x5_S4000000x1_0_3 : S4000000x5.Slices ![0, 3] S4000000x1
  slices_S4000000x5_S4000000x1_0_4 : S4000000x5.Slices ![0, 4] S4000000x1
  bcast_S_S4000000 : S_.BroadcastsInDim S4000000 (![] : Fin 0 → Fin S4000000.rank)
  slices_S4000000x5_S4000000x2_0_0 : S4000000x5.Slices ![0, 0] S4000000x2
  slices_S4000000x2_S4000000x1_0_0 : S4000000x2.Slices ![0, 0] S4000000x1
  slices_S4000000x2_S4000000x1_0_1 : S4000000x2.Slices ![0, 1] S4000000x1
  reducesTo_S4000000_S_d0 : S4000000.ReducesTo [0] S_
  h_S_ : 0 < S_.numel

variable [Facts₀]

class Facts : Prop extends Facts₀ where

variable [Facts]
-- ==== Proof.RowLoss.lean ====
/-
  The loss of one pair of rotated boxes, as a function of the ten numbers of the two rows.

  A box row is (cx, cy, w, h, angle). Its Gaussian has mean (cx, cy) and covariance
      C11 = c²·W² + s²·H²,   C22 = s²·W² + c²·H²,   C12 = (s·c)·(W² − H²),
  with W = max(w, h) halved, H = min(w, h) halved, c = cos angle, s = sin angle. With ε added on the two diagonals of
  both covariances, S = P + T, d = mean_p − mean_t,
      term₁ = ⅛ · (S22·dx·dx − 2·S12·dx·dy + S11·dy·dy) / det S,
      term₂ = ½ · log det S − ¼ · (log det P + log det T),
  and the loss is max(1 − exp(−clip(term₁ + term₂, −100, 100)), 0) · 1.

  Both programs compute exactly this chain of operations, one per row, and differ only in how they spell five of them:
  halving (a product with ½, or a quotient by 2), negation (0 − x, or −x), and which unit's cosine, sine, logarithm,
  exponential and quotient they call. So the chain is written ONCE here, over any float type, with those operations as
  parameters; `lossK` and `lossR` are its two instances, and over the extended reals they are one function.
-/
import Idealize.ShloMosaic.PureOps.Ideal
import Idealize.ShloMosaic.PureOps.Ideal.Laws
import Idealize.ShloMosaic.Lib.ValueIdx

noncomputable section

namespace Cert.RowLoss

open Idealize.ShloMosaic

variable {F : FTy → Type} [FloatOps F]

/-- One box's covariance (C11, C22, C12) from its raw width, height and angle. -/
def cov (halve cosf sinf : F .f32 → F .f32) (wr hr a : F .f32) : F .f32 × F .f32 × F .f32 :=
  let w := FloatOps.maximumf wr hr
  let h := FloatOps.minimumf wr hr
  let c := cosf a
  let s := sinf a
  let c2 := FloatOps.mulf c c
  let s2 := FloatOps.mulf s s
  let w2 := FloatOps.mulf (halve w) (halve w)
  let h2 := FloatOps.mulf (halve h) (halve h)
  (FloatOps.addf (FloatOps.mulf c2 w2) (FloatOps.mulf s2 h2),
   FloatOps.addf (FloatOps.mulf s2 w2) (FloatOps.mulf c2 h2),
   FloatOps.mulf (FloatOps.mulf s c) (FloatOps.subf w2 h2))

/-- The loss of one pair of rows, the five operations the two programs spell differently as parameters. -/
def loss (halve neg cosf sinf logf expf : F .f32 → F .f32) (divv : F .f32 → F .f32 → F .f32)
    (p0 p1 p2 p3 p4 t0 t1 t2 t3 t4 : F .f32) : F .f32 :=
  let P := cov halve cosf sinf p2 p3 p4
  let T := cov halve cosf sinf t2 t3 t4
  let eps : F .f32 := FloatOps.ofBits .f32 0x358637BD#32
  let P11 := FloatOps.addf P.1 eps
  let P22 := FloatOps.addf P.2.1 eps
  let T11 := FloatOps.addf T.1 eps
  let T22 := FloatOps.addf T.2.1 eps
  let S11 := FloatOps.addf P11 T11
  let S12 := FloatOps.addf P.2.2 T.2.2
  let S22 := FloatOps.addf P22 T22
  let dx := FloatOps.subf p0 t0
  let dy := FloatOps.subf p1 t1
  let detS := FloatOps.subf (FloatOps.mulf S11 S22) (FloatOps.mulf S12 S12)
  let quad := divv
    (FloatOps.addf
      (FloatOps.subf (FloatOps.mulf (FloatOps.mulf S22 dx) dx)
        (FloatOps.mulf (FloatOps.mulf (FloatOps.mulf (FloatOps.ofBits .f32 0x40000000#32) S12) dx) dy))
      (FloatOps.mulf (FloatOps.mulf S11 dy) dy))
    detS
  let term1 := FloatOps.mulf (FloatOps.ofBits .f32 0x3E000000#32) quad
  let detP := FloatOps.subf (FloatOps.mulf P11 P22) (FloatOps.mulf P.2.2 P.2.2)
  let detT := FloatOps.subf (FloatOps.mulf T11 T22) (FloatOps.mulf T.2.2 T.2.2)
  let term2 := FloatOps.subf (FloatOps.mulf (FloatOps.ofBits .f32 0x3F000000#32) (logf detS))
    (FloatOps.mulf (FloatOps.ofBits .f32 0x3E800000#32) (FloatOps.addf (logf detP) (logf detT)))
  let bd := FloatOps.minimumf (FloatOps.ofBits .f32 0x42C80000#32)
    (FloatOps.maximumf (FloatOps.ofBits .f32 0xC2C80000#32) (FloatOps.addf term1 term2))
  FloatOps.mulf
    (FloatOps.maximumf (FloatOps.subf (FloatOps.ofBits .f32 0x3F800000#32) (expf (neg bd))) (FloatOps.ofBits .f32 0x00000000#32))
    (FloatOps.ofBits .f32 0x3F800000#32)

/-- The chain as the kernel spells it: halving is a product with ½, negation is 0 − x, the vector unit's functions. -/
def lossK : F .f32 → F .f32 → F .f32 → F .f32 → F .f32 → F .f32 → F .f32 → F .f32 → F .f32 → F .f32 → F .f32 :=
  loss (fun x => FloatOps.mulf x (FloatOps.ofBits .f32 0x3F000000#32))
    (fun x => FloatOps.subf (FloatOps.ofBits .f32 0x00000000#32) x)
    FloatOps.cos FloatOps.sin FloatOps.log FloatOps.exp FloatOps.divf

/-- The chain as the reference spells it: halving is a quotient by 2, negation is −x, the host's functions. -/
def lossR : F .f32 → F .f32 → F .f32 → F .f32 → F .f32 → F .f32 → F .f32 → F .f32 → F .f32 → F .f32 → F .f32 :=
  loss (fun x => FloatOps.hostDivf x (FloatOps.ofBits .f32 0x40000000#32))
    FloatOps.hostNegf
    (FloatOps.hostUnary .cos) (FloatOps.hostUnary .sin) (FloatOps.hostUnary .log) (FloatOps.hostUnary .exp) FloatOps.hostDivf

/-! ## Over the extended reals the two spellings are one function -/

/-- The word of `2.0` denotes the real 2. -/
theorem ofBits_two : Ideal.ofBits .f32 0x40000000#32 = ((2 : ℝ) : EReal) := by
  simp [Ideal.ofBits, Ideal.ieee, -EReal.coe_mul]; norm_num

/-- The word of `0.5` denotes the real ½. -/
theorem ofBits_half : Ideal.ofBits .f32 0x3F000000#32 = ((1 / 2 : ℝ) : EReal) := by
  simp [Ideal.ofBits, Ideal.ieee, -EReal.coe_mul]; norm_num

/-- A product with ½ is a quotient by 2, at every extended real (the infinities included). -/
theorem halve_eq (x : Ideal .f32) :
    (FloatOps.mulf x (FloatOps.ofBits .f32 0x3F000000#32) : Ideal .f32) = FloatOps.hostDivf x (FloatOps.ofBits .f32 0x40000000#32) := by
  show x * Ideal.ofBits .f32 0x3F000000#32 = Ideal.div x (Ideal.ofBits .f32 0x40000000#32)
  rw [ofBits_two, ofBits_half, Ideal.div_coe (by norm_num : (2 : ℝ) ≠ 0)]

/-- 0 − x is −x, at every extended real. -/
theorem neg_eq (x : Ideal .f32) :
    (FloatOps.subf (FloatOps.ofBits .f32 0x00000000#32) x : Ideal .f32) = FloatOps.hostNegf x := by
  show Ideal.ofBits .f32 0x00000000#32 - x = -x
  rw [Ideal.ofBits_zero_f32, zero_sub]

/-- So over the extended reals the kernel's chain is the reference's: the vector unit's and the host's cosine, sine,
    logarithm, exponential and quotient are the same functions there. -/
theorem lossK_eq_lossR : lossK (F := Ideal) = lossR (F := Ideal) := by
  unfold lossK lossR
  rw [show (fun x : Ideal .f32 => FloatOps.mulf x (FloatOps.ofBits .f32 0x3F000000#32))
        = (fun x : Ideal .f32 => FloatOps.hostDivf x (FloatOps.ofBits .f32 0x40000000#32)) from funext halve_eq,
    show (fun x : Ideal .f32 => FloatOps.subf (FloatOps.ofBits .f32 0x00000000#32) x) = FloatOps.hostNegf from funext neg_eq]
  rfl

end Cert.RowLoss

end
-- ==== Proof.LibRowLayout.lean ====
/-
  Row layouts and column reductions read at an index.

  A reduction along the FIRST axis of a rank-2 array with `keepdims` leaves a row: the reduced vector `[b]` is cast to
  `[1, b]` and broadcast back to `[a, b]`, so entry `(p, c)` of the broadcast is entry `c` of the reduced vector. The
  reduction itself, over the first axis of an `[a, b]` array and read at column `q`, is the sum over that column's
  entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.RowLayout

open Idealize.ShloMosaic Idealize.ShloMosaic.ValueIdx

variable {α : Type}

/-- A reduced vector `[b]` kept as the row `[1, b]` and broadcast back along the columns reads, at `(p, c)`, the
    vector's entry `c`, whatever the row `p`. -/
theorem keepdimsRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A float sum over the first axis of an `[a, b]` array from the zero word, read at column `q` at the extended reals: the
    sum of the column's entries. -/
theorem colSum_apply {a b : ℕ} (src : FVec Ideal ⟨2, ![a, b]⟩ .f32) (h : (⟨2, ![a, b]⟩ : Shape).Reduces [0] ⟨1, ![b]⟩)
    (hφ : FKind.Formats FTy.f32) (hacc : (0x00000000#32 : BitVec FTy.f32.bits) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

end Idealize.ShloMosaic.RowLayout

end
-- ==== Proof.SlabValue.lean ====
/-
  What one grid point adds to the accumulator, read at a lane.

  At a grid point the kernel loads a block of 16000 rows of each argument, transposes it to 5 rows of 16000, casts that
  to 625 rows of 128 and cuts it into the five channel slabs of 125 × 128: entry (r, l) of channel k's slab is entry
  (128·r + l, k) of the block. All the arithmetic then runs entry by entry on the slabs, so entry (r, l) of the loss
  slab is the loss of row 128·r + l of the two blocks. The slab is summed along r into 128 lanes and the lane sums are
  added to the accumulator: at lane l the point adds the losses of the rows 128·r + l, r = 0 … 124.
-/
import proofs.«116503_j18047452578536_2_alg».proof.Proof.Gen.KernelIdeal.Skeleton
import proofs.«116503_j18047452578536_2_alg».proof.Proof.RowLoss
import proofs.«116503_j18047452578536_2_alg».proof.Proof.LibRowLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

variable {F : FTy → Type} [FloatOps F]

/-- Row 128·r + l of a block of 16000 rows. -/
abbrev rowOf (r : Fin 125) (l : Fin 128) : Fin 16000 := ⟨128 * r.val + l.val, by have := r.isLt; have := l.isLt; omega⟩

/-- A block transposed, cast to 625 × 128 and cut from row 125·k: entry (r, l) is entry (128·r + l, k) of the block. -/
theorem channel_apply (x : Vec F S16000x5 .f32) (k : Fin 5) (h : S625x128.Slices ![125 * k.val, 0] S125x128)
    (r : Fin 125) (l : Fin 128) :
    extractStridedSlice S125x128 ![125 * k.val, 0] (k0_pay4 x) h (ix2 r l) = x (ix2 (rowOf r l) k) := by
  have hr := r.isLt
  have hl := l.isLt
  have hk := k.isLt
  refine (slice2_axis0_apply (125 * k.val) (k0_pay4 x) h r l ⟨125 * k.val + r.val, by omega⟩ rfl).trans ?_
  unfold k0_pay4
  refine (shapeCast_apply _ shapeCasts_S5x16000_S625x128 _ (ix2 k (rowOf r l)) ?_).trans ?_
  · rw [Shape.rowMajor_val_two, Shape.rowMajor_val_two]
    show k.val * 16000 + (128 * r.val + l.val) = (125 * k.val + r.val) * 128 + l.val
    omega
  · exact transpose_ix2_apply x transposes_S16000x5_p1_0_S5x16000 k (rowOf r l)

/-- The loss slab of a point: entry by entry the kernel's chain on the ten channel slabs. -/
def lossSlab (x0 x1 : Vec F S16000x5 .f32) : FVec F S125x128 .f32 := fun j =>
  RowLoss.lossK (k0_pay6 x0 j) (k0_pay7 x0 j) (k0_pay8 x0 j) (k0_pay9 x0 j) (k0_pay10 x0 j)
    (k0_pay20 x1 j) (k0_pay21 x1 j) (k0_pay22 x1 j) (k0_pay23 x1 j) (k0_pay24 x1 j)

/-- What the body stores into the accumulator, over the two blocks it loaded and the accumulator it read. -/
def stored (x0 x1 : Vec F S16000x5 .f32) (acc : Vec F S1x128 .f32) : FVec F S1x128 .f32 :=
  k0_pay1 (k0_pay19 x0) (k0_pay33 (k0_pay24 x1) (k0_pay25 x1) (k0_pay26 x1) (k0_pay27 x1)) (k0_pay34 (k0_pay17 x0))
    (k0_pay35 (k0_pay18 x0)) (k0_pay36 (k0_pay24 x1) (k0_pay25 x1) (k0_pay26 x1) (k0_pay27 x1))
    (k0_pay37 (k0_pay24 x1) (k0_pay25 x1) (k0_pay26 x1) (k0_pay27 x1))
    (k0_pay41 (k0_pay17 x0) (k0_pay18 x0) (k0_pay19 x0) (k0_pay24 x1) (k0_pay25 x1) (k0_pay26 x1) (k0_pay27 x1))
    (k0_pay42 (k0_pay6 x0) (k0_pay7 x0) (k0_pay17 x0) (k0_pay18 x0) (k0_pay19 x0) (k0_pay20 x1) (k0_pay21 x1)
      (k0_pay24 x1) (k0_pay25 x1) (k0_pay26 x1) (k0_pay27 x1))
    (k0_pay43 (F := F)) acc

/-- It is the accumulator plus the lane sums of the loss slab: the payloads unfold, entry by entry, to the chain. -/
theorem stored_eq (x0 x1 : Vec F S16000x5 .f32) (acc : Vec F S1x128 .f32) :
    stored x0 x1 acc = shapeCast S1x128 (addf acc (shapeCast S1x128
      (multiReduction .add [0] S128 (lossSlab x0 x1) 0x00000000#32 reduces_S125x128_S128 (.inl rfl) rfl)
      shapeCasts_S128_S1x128)) shapeCasts_S1x128_S1x128 := rfl

/-- Entry (r, l) of the loss slab is the chain on row 128·r + l of the two blocks. -/
theorem lossSlab_apply (x0 x1 : Vec F S16000x5 .f32) (r : Fin 125) (l : Fin 128) :
    lossSlab x0 x1 (ix2 r l)
      = RowLoss.lossK (x0 (ix2 (rowOf r l) 0)) (x0 (ix2 (rowOf r l) 1)) (x0 (ix2 (rowOf r l) 2)) (x0 (ix2 (rowOf r l) 3))
          (x0 (ix2 (rowOf r l) 4)) (x1 (ix2 (rowOf r l) 0)) (x1 (ix2 (rowOf r l) 1)) (x1 (ix2 (rowOf r l) 2))
          (x1 (ix2 (rowOf r l) 3)) (x1 (ix2 (rowOf r l) 4)) := by
  unfold lossSlab
  rw [show k0_pay6 x0 (ix2 r l) = x0 (ix2 (rowOf r l) 0) from channel_apply x0 0 slices_S625x128_o0_0_S125x128 r l,
    show k0_pay7 x0 (ix2 r l) = x0 (ix2 (rowOf r l) 1) from channel_apply x0 1 slices_S625x128_o125_0_S125x128 r l,
    show k0_pay8 x0 (ix2 r l) = x0 (ix2 (rowOf r l) 2) from channel_apply x0 2 slices_S625x128_o250_0_S125x128 r l,
    show k0_pay9 x0 (ix2 r l) = x0 (ix2 (rowOf r l) 3) from channel_apply x0 3 slices_S625x128_o375_0_S125x128 r l,
    show k0_pay10 x0 (ix2 r l) = x0 (ix2 (rowOf r l) 4) from channel_apply x0 4 slices_S625x128_o500_0_S125x128 r l,
    show k0_pay20 x1 (ix2 r l) = x1 (ix2 (rowOf r l) 0) from channel_apply x1 0 slices_S625x128_o0_0_S125x128 r l,
    show k0_pay21 x1 (ix2 r l) = x1 (ix2 (rowOf r l) 1) from channel_apply x1 1 slices_S625x128_o125_0_S125x128 r l,
    show k0_pay22 x1 (ix2 r l) = x1 (ix2 (rowOf r l) 2) from channel_apply x1 2 slices_S625x128_o250_0_S125x128 r l,
    show k0_pay23 x1 (ix2 r l) = x1 (ix2 (rowOf r l) 3) from channel_apply x1 3 slices_S625x128_o375_0_S125x128 r l,
    show k0_pay24 x1 (ix2 r l) = x1 (ix2 (rowOf r l) 4) from channel_apply x1 4 slices_S625x128_o500_0_S125x128 r l]

/-- At the extended reals: lane l of what the body stores is lane l of the accumulator it read plus the losses of the
    rows 128·r + l, r = 0 … 124, of the two blocks. -/
theorem stored_apply (x0 x1 : FVec Ideal S16000x5 .f32) (acc : FVec Ideal S1x128 .f32) (l : Fin 128) :
    stored (F := Ideal) x0 x1 acc (ix2 0 l)
      = acc (ix2 0 l) + ∑ r : Fin 125,
          RowLoss.lossK (F := Ideal) (x0 (ix2 (rowOf r l) 0)) (x0 (ix2 (rowOf r l) 1)) (x0 (ix2 (rowOf r l) 2))
            (x0 (ix2 (rowOf r l) 3)) (x0 (ix2 (rowOf r l) 4)) (x1 (ix2 (rowOf r l) 0)) (x1 (ix2 (rowOf r l) 1))
            (x1 (ix2 (rowOf r l) 2)) (x1 (ix2 (rowOf r l) 3)) (x1 (ix2 (rowOf r l) 4)) := by
  rw [stored_eq, shapeCast_self]
  show acc (ix2 0 l) + shapeCast S1x128 _ shapeCasts_S128_S1x128 (ix2 0 l) = _
  rw [shapeCast_a_1a_apply]
  refine congrArg _ ((RowLayout.colSum_apply (lossSlab x0 x1) reduces_S125x128_S128 (.inl rfl) rfl l).trans ?_)
  exact Finset.sum_congr rfl fun r _ => lossSlab_apply (F := Ideal) x0 x1 r l

end Cert.KernelIdeal.Body

end
-- ==== Proof.CaseValues.lean ====
/-
  What each control case of the body leaves behind, as values.

  The body runs in three cases. At a core's first point it stores the zero row into the accumulator, reads it back and
  stores zero-row + lane sums. At the later points it stores accumulator + lane sums. At a core's last point it does the
  same and then copies the accumulator into the output block. In every case the accumulator ends at `stored` of the two
  loaded blocks and of what it held (the zero row at a first point); in the last case the output block ends at that row
  with a unit axis in front.
-/
import proofs.«116503_j18047452578536_2_alg».proof.Proof.Gen.KernelIdeal.Frame
import proofs.«116503_j18047452578536_2_alg».proof.Proof.SlabValue
import Idealize.ShloMosaic.Lib.Pipeline.Value
import Idealize.ShloMosaic.Lib.Tactic

noncomputable section

namespace Cert.KernelIdeal.Body

open Idealize.ShloMosaic Idealize.ShloMosaic.TcCoe Idealize.ShloMosaic.Tactic Idealize.SL.Sem Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The zero row a core's first point stores. -/
abbrev zeroRow : FVec F S1x128 .f32 := k0_pay3

/-- A later point that is not a core's last: the accumulator ends at `stored` of the blocks and of what it held. -/
theorem sout_B (c : Dev nD) (i : grid0.Coords) (a2 : Memref sig .tc .vmem S16000x5 .f32) (h2 : a2.IsWhole)
    (a3 : Memref sig .tc .vmem S16000x5 .f32) (h3 : a3.IsWhole) (a4 : Memref sig .tc .vmem S1x1x128 .f32) (h4 : a4.IsWhole)
    (a5 : Memref sig .tc .vmem S1x128 .f32) (h5 : a5.IsWhole) (hc0 : ¬cond0_0 i) (hc1 : ¬cond0_1 i)
    (x0 x1 : Vec F S16000x5 .f32) (xs0 : Vec F S1x128 .f32) :
    sout0_B_0 c i a2 h2 a3 h3 a4 h4 a5 h5 hc0 hc1 x0 x1 xs0 = stored x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero zeros2]
  simp only [View.readAt_eq_ld, h2.read_unread, h3.read_unread, h5.read_unread, View.ld_unit_zero (S := S16000x5) zeros2,
    View.ld_unit_zero (S := S1x128) zeros2]
  rfl

/-- A core's last point: the accumulator ends the same way, -/
theorem sout_C (c : Dev nD) (i : grid0.Coords) (a2 : Memref sig .tc .vmem S16000x5 .f32) (h2 : a2.IsWhole)
    (a3 : Memref sig .tc .vmem S16000x5 .f32) (h3 : a3.IsWhole) (a4 : Memref sig .tc .vmem S1x1x128 .f32) (h4 : a4.IsWhole)
    (a5 : Memref sig .tc .vmem S1x128 .f32) (h5 : a5.IsWhole) (hc0 : ¬cond0_0 i) (hc1 : cond0_1 i)
    (x0 x1 : Vec F S16000x5 .f32) (xs0 : Vec F S1x128 .f32) :
    sout0_C_0 c i a2 h2 a3 h3 a4 h4 a5 h5 hc0 hc1 x0 x1 xs0 = stored x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero zeros2]
  simp only [View.readAt_eq_ld, h2.read_unread, h3.read_unread, h5.read_unread, View.ld_unit_zero (S := S16000x5) zeros2,
    View.ld_unit_zero (S := S1x128) zeros2]
  rfl

/-- and the output block holds that row, a unit axis put in front. -/
theorem out_C (c : Dev nD) (i : grid0.Coords) (a2 : Memref sig .tc .vmem S16000x5 .f32) (h2 : a2.IsWhole)
    (a3 : Memref sig .tc .vmem S16000x5 .f32) (h3 : a3.IsWhole) (a4 : Memref sig .tc .vmem S1x1x128 .f32) (h4 : a4.IsWhole)
    (a5 : Memref sig .tc .vmem S1x128 .f32) (h5 : a5.IsWhole) (hc0 : ¬cond0_0 i) (hc1 : cond0_1 i)
    (x0 x1 : Vec F S16000x5 .f32) (xs0 : Vec F S1x128 .f32) :
    out0_C_2 c i a2 h2 a3 h3 a4 h4 a5 h5 hc0 hc1 x0 x1 xs0 = k0_pay2 (stored x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero zeros3, View.readCov_unit_zero (S := S1x128) _ zeros2]
  simp only [View.readAt_eq_ld, h2.read_unread, h3.read_unread, h5.read_unread, View.ld_unit_zero (S := S16000x5) zeros2,
    View.ld_unit_zero (S := S1x128) zeros2]
  rfl

/-- A core's first point: the zero row is stored, read back, and the accumulator ends at `stored` over it. -/
theorem sout_A (c : Dev nD) (i : grid0.Coords) (a2 : Memref sig .tc .vmem S16000x5 .f32) (h2 : a2.IsWhole)
    (a3 : Memref sig .tc .vmem S16000x5 .f32) (h3 : a3.IsWhole) (a4 : Memref sig .tc .vmem S1x1x128 .f32) (h4 : a4.IsWhole)
    (a5 : Memref sig .tc .vmem S1x128 .f32) (h5 : a5.IsWhole) (hc0 : cond0_0 i) (hc1 : ¬cond0_1 i)
    (x0 x1 : Vec F S16000x5 .f32) :
    sout0_A_0 c i a2 h2 a3 h3 a4 h4 a5 h5 hc0 hc1 x0 x1 = stored x0 x1 zeroRow := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x128) zeros2, View.readCov_unit_zero (S := S1x128) _ zeros2]
  simp only [View.readAt_eq_ld, h2.read_unread, h3.read_unread, View.ld_unit_zero (S := S16000x5) zeros2]
  rfl

end Cert.KernelIdeal.Body

end
-- ==== Proof.Accumulated.lean ====
/-
  The accumulator over a core's run of points.

  The 250 grid points are two runs of 125, one per core: point 125·q + j is core q's j-th. The accumulator is reset to the
  zero row at a run's first point and every point adds its lane sums, so after point 125·q + j it is the fold of `stored`
  over the run's points so far. Over the extended reals lane l of that fold is the sum, over the points s = 0 … j of the run
  and r = 0 … 124, of the loss of row 16000·(125·q + s) + 128·r + l of the two argument arrays: a point's blocks are rows
  16000·t … 16000·t + 15999.
-/
import proofs.«116503_j18047452578536_2_alg».proof.Proof.CaseValues
import Idealize.ShloMosaic.Lib.Pipeline.Value

noncomputable section

namespace Cert.KernelIdeal.Body

open Idealize.ShloMosaic Idealize.ShloMosaic.TcCoe Idealize.ShloMosaic.ValueIdx Idealize.SL.Sem Cert.KernelIdeal Cert.KernelIdeal.Gen

/-! ## The fold, at any float type -/

section Fold

variable {F : FTy → Type} [FloatOps F]
variable (m : (ℓ : Loc nD τ sig) → Buf (Elt F) ℓ)

/-- The accumulator after point `n`. -/
def accAfter (c : Dev nD) (n : ℕ) (h : n < cfg0.N) : Vec F S1x128 .f32 := (outsAt0 m c n h).2

/-- What a run's first point leaves: `stored` of its blocks over the zero row. -/
def resetAt (c : Dev nD) (n : ℕ) (h : n < cfg0.N) : Vec F S1x128 .f32 :=
  stored (iblk m c 0 ⟨n, h⟩) (iblk m c 1 ⟨n, h⟩) zeroRow

/-- What a later point leaves: `stored` of its blocks over what the point before left. -/
def stepAt (c : Dev nD) (n : ℕ) (h : n < cfg0.N) (acc : Vec F S1x128 .f32) : Vec F S1x128 .f32 :=
  stored (iblk m c 0 ⟨n, h⟩) (iblk m c 1 ⟨n, h⟩) acc

theorem acc_reset (c : Dev nD) (n : ℕ) (h : n < cfg0.N) (h0 : n % 125 = 0) : accAfter m c n h = resetAt m c n h := by
  have h1 : ¬(⟨n, h⟩ : Fin cfg0.N).val % 125 = 124 := by dsimp only; omega
  unfold accAfter resetAt
  rw [outsAt0_A m c ⟨n, h⟩ h0 h1]
  dsimp only
  exact sout_A (F := F) ..

theorem acc_step (c : Dev nD) (n : ℕ) (h : n + 1 < cfg0.N) (hne : ¬(n + 1) % 125 = 0) :
    accAfter m c (n + 1) h = stepAt m c (n + 1) h (accAfter m c n (Nat.lt_of_succ_lt h)) := by
  unfold accAfter stepAt
  by_cases h1 : (n + 1) % 125 = 124
  · rw [outsAt0_C m c ⟨n + 1, h⟩ hne h1]
    dsimp only
    exact sout_C (F := F) ..
  · rw [outsAt0_B m c ⟨n + 1, h⟩ hne h1]
    dsimp only
    exact sout_B (F := F) ..

/-- After any point the accumulator is the fold over its run so far. -/
theorem acc_eq_fold (c : Dev nD) (t : ℕ) (ht : t < cfg0.N) (h' : 125 * (t / 125) + t % 125 < cfg0.N) :
    accAfter m c t ht = Pipeline.accAt (resetAt m c) (stepAt m c) (125 * (t / 125)) (t % 125) h' :=
  Pipeline.eq_accAt_of_mod (accAfter m c) 125 (resetAt m c) (stepAt m c) (fun n h h0 => acc_reset m c n h h0)
    (fun n h hne => acc_step m c n h hne) (by norm_num) t ht h'

/-- Where the input windows' blocks sit: block `t` of either argument starts at row 16000·t. -/
theorem index_in0 : ∀ t : Fin cfg0.N, win0_0.index t 0 = t.val ∧ win0_0.index t 1 = 0 :=
  (by decide +kernel : ∀ t : Fin grid0.N, win0_0.index t 0 = t.val ∧ win0_0.index t 1 = 0)
theorem index_in1 : ∀ t : Fin cfg0.N, win0_1.index t 0 = t.val ∧ win0_1.index t 1 = 0 :=
  (by decide +kernel : ∀ t : Fin grid0.N, win0_1.index t 0 = t.val ∧ win0_1.index t 1 = 0)

/-- Row `u` of block `t` is a row of the array. -/
theorem row_lt (t : Fin cfg0.N) (u : Fin 16000) : 16000 * t.val + u.val < 4000000 := by
  have := t.isLt; have : cfg0.N = 250 := N_0; have := u.isLt; omega

/-- Entry (u, k) of block `t` of the first argument is entry (16000·t + u, k) of the array. -/
theorem iblk0_apply (c : Dev nD) (t : Fin cfg0.N) (u : Fin 16000) (k : Fin 5) :
    iblk m c 0 t (ix2 u k) = V m c main_arg0 (ix2 ⟨16000 * t.val + u.val, row_lt t u⟩ k) := by
  unfold iblk
  rw [View.read_apply]
  show V m c main_arg0 _ = V m c main_arg0 _
  refine congrArg _ (funext fun a => Fin.ext ?_)
  match a with
  | ⟨0, _⟩ => show win0_0.index t 0 * 16000 + 1 * u.val = 16000 * t.val + u.val; rw [(index_in0 t).1]; omega
  | ⟨1, _⟩ => show win0_0.index t 1 * 5 + 1 * k.val = k.val; rw [(index_in0 t).2]; omega

/-- The same of the second argument. -/
theorem iblk1_apply (c : Dev nD) (t : Fin cfg0.N) (u : Fin 16000) (k : Fin 5) :
    iblk m c 1 t (ix2 u k) = V m c main_arg1 (ix2 ⟨16000 * t.val + u.val, row_lt t u⟩ k) := by
  unfold iblk
  rw [View.read_apply]
  show V m c main_arg1 _ = V m c main_arg1 _
  refine congrArg _ (funext fun a => Fin.ext ?_)
  match a with
  | ⟨0, _⟩ => show win0_1.index t 0 * 16000 + 1 * u.val = 16000 * t.val + u.val; rw [(index_in1 t).1]; omega
  | ⟨1, _⟩ => show win0_1.index t 1 * 5 + 1 * k.val = k.val; rw [(index_in1 t).2]; omega

end Fold

end Cert.KernelIdeal.Body

end
-- ==== Proof.LibBlockSum.lean ====
/-
  A general lemma on sums: a sum over the a·b rows of a matrix may be taken block by block, a blocks of b consecutive rows.
-/
import Mathlib.Algebra.BigOperators.Fin
import Mathlib.Logic.Equiv.Fin.Basic

namespace Cert.LibBlockSum

open scoped BigOperators

/-- Row j of block i of an a-by-b blocking is a row of the whole. -/
theorem lt_blocks {a b i j : ℕ} (hi : i < a) (hj : j < b) : b * i + j < a * b :=
  calc b * i + j < b * i + b := by omega
    _ = b * (i + 1) := (Nat.mul_succ b i).symm
    _ ≤ b * a := Nat.mul_le_mul_left b hi
    _ = a * b := Nat.mul_comm b a

/-- The sum over all a·b rows is the sum over the a blocks of the sums over each block's b rows. -/
theorem sum_blocks {M : Type*} [AddCommMonoid M] (a b : ℕ) (g : Fin (a * b) → M) :
    ∑ i : Fin a, ∑ j : Fin b, g ⟨b * i.val + j.val, lt_blocks i.isLt j.isLt⟩ = ∑ r : Fin (a * b), g r := by
  rw [← Equiv.sum_comp finProdFinEquiv g, Fintype.sum_prod_type]
  refine Finset.sum_congr rfl fun i _ => Finset.sum_congr rfl fun j _ => congrArg g (Fin.ext ?_)
  simp only [finProdFinEquiv_apply_val]
  omega

end Cert.LibBlockSum
-- ==== Proof.LibRangeBlocks.lean ====
/-
  A general lemma on sums over an initial segment of the naturals: the first a·b naturals may be taken block by block,
  a blocks of b consecutive ones.
-/
import proofs.«116503_j18047452578536_2_alg».proof.Proof.LibBlockSum

namespace Cert.LibRangeBlocks

open scoped BigOperators

/-- A sum over the first a·b naturals, taken as a blocks of b consecutive ones: block i holds b·i, …, b·i + b − 1. -/
theorem sum_range_blocks {M : Type*} [AddCommMonoid M] (a b : ℕ) (g : ℕ → M) :
    ∑ i ∈ Finset.range a, ∑ j ∈ Finset.range b, g (b * i + j) = ∑ n ∈ Finset.range (a * b), g n :=
  calc ∑ i ∈ Finset.range a, ∑ j ∈ Finset.range b, g (b * i + j)
      = ∑ i : Fin a, ∑ j ∈ Finset.range b, g (b * i.val + j) := Finset.sum_range _
    _ = ∑ i : Fin a, ∑ j : Fin b, g (b * i.val + j.val) := Finset.sum_congr rfl fun i _ => Finset.sum_range _
    _ = ∑ r : Fin (a * b), g r.val := Cert.LibBlockSum.sum_blocks a b fun r => g r.val
    _ = ∑ n ∈ Finset.range (a * b), g n := (Finset.sum_range _).symm

end Cert.LibRangeBlocks
-- ==== Proof.Rows.lean ====
/-
  The total loss as a sum over the rows, and the same sum taken core by core, lane by lane.

  Both programs return the sum of the losses of the 4,000,000 rows. The reference sums them in one stretch. The kernel takes
  them as 2 cores × 125 points × 125 slab rows × 128 lanes — row 16000·(125·q + s) + 128·r + l is lane l of slab row r of
  core q's point s — and adds, for each core and lane, the points' lane sums first. Addition of extended reals is commutative
  and associative, so the two groupings are one sum; no finiteness is needed.
-/
import proofs.«116503_j18047452578536_2_alg».proof.Proof.RowLoss
import proofs.«116503_j18047452578536_2_alg».proof.Proof.LibRangeBlocks

noncomputable section

namespace Cert.RowLoss

open Idealize.ShloMosaic Idealize.ShloMosaic.ValueIdx Cert.LibRangeBlocks
open scoped BigOperators

/-- The shape of either argument: 4,000,000 rows of five numbers. -/
abbrev Rows : Shape := ⟨2, ![4000000, 5]⟩

/-- The loss of row `n` of two arrays, in the kernel's spelling; 0 past the last row (never summed). -/
def rowLoss (X0 X1 : Rows.Idx → Ideal .f32) (n : ℕ) : Ideal .f32 :=
  if h : n < 4000000 then lossK (F := Ideal) (X0 (ix2 ⟨n, h⟩ 0)) (X0 (ix2 ⟨n, h⟩ 1)) (X0 (ix2 ⟨n, h⟩ 2)) (X0 (ix2 ⟨n, h⟩ 3)) (X0 (ix2 ⟨n, h⟩ 4)) (X1 (ix2 ⟨n, h⟩ 0)) (X1 (ix2 ⟨n, h⟩ 1)) (X1 (ix2 ⟨n, h⟩ 2)) (X1 (ix2 ⟨n, h⟩ 3)) (X1 (ix2 ⟨n, h⟩ 4)) else 0

/-- The total: the losses of all the rows. -/
def total (X0 X1 : Rows.Idx → Ideal .f32) : Ideal .f32 := ∑ n ∈ Finset.range 4000000, rowLoss X0 X1 n

/-- The total taken the kernel's way: per core q and lane l, the points s of the core's run and the slab rows r. -/
theorem sum_by_lanes {M : Type*} [AddCommMonoid M] (f : ℕ → M) :
    ∑ q ∈ Finset.range 2, ∑ l ∈ Finset.range 128, ∑ s ∈ Finset.range 125, ∑ r ∈ Finset.range 125,
        f (16000 * (125 * q + s) + (128 * r + l))
      = ∑ n ∈ Finset.range 4000000, f n := by
  rw [show (4000000 : ℕ) = 250 * 16000 from rfl, ← sum_range_blocks 250 16000 f,
    show (250 : ℕ) = 2 * 125 from rfl, ← sum_range_blocks 2 125 fun t => ∑ u ∈ Finset.range 16000, f (16000 * t + u)]
  refine Finset.sum_congr rfl fun q _ => ?_
  rw [Finset.sum_comm]
  refine Finset.sum_congr rfl fun s _ => ?_
  rw [show (16000 : ℕ) = 125 * 128 from rfl, ← sum_range_blocks 125 128 fun u => f (125 * 128 * (125 * q + s) + u)]
  exact Finset.sum_comm

end Cert.RowLoss

end
-- ==== Proof.LaneSums.lean ====
/-
  The accumulator over a run, read at a lane, over the extended reals.

  Lane l of what a point stores is lane l of the accumulator it read plus the losses of rows 16000·t + 128·r + l, r = 0 … 124,
  of the two argument arrays (`pointSum`). The zero row is 0. So lane l of the fold over a run's points b … b + j is
  0 + the points' sums.
-/
import proofs.«116503_j18047452578536_2_alg».proof.Proof.Accumulated
import proofs.«116503_j18047452578536_2_alg».proof.Proof.Rows

noncomputable section

namespace Cert.KernelIdeal.Body

open Idealize.ShloMosaic Idealize.ShloMosaic.TcCoe Idealize.ShloMosaic.ValueIdx Idealize.SL.Sem Cert.KernelIdeal Cert.KernelIdeal.Gen
open Cert.RowLoss

variable (m : (ℓ : Loc nD τ sig) → Buf (Elt Ideal) ℓ)

/-- The zero row is 0 at every lane. -/
theorem zeroRow_apply (i : S1x128.Idx) : zeroRow (F := Ideal) i = 0 := by
  show shapeCast S1x128 (broadcast S1x128 (Scalar.ofBits (F := Ideal) .f32 0x00000000#32)) shapeCasts_S1x128_S1x128 i = 0
  rw [shapeCast_self]
  exact Ideal.ofBits_zero_f32

/-- What point `n` adds at lane `l`: the losses of the rows 16000·n + 128·r + l. -/
def pointSum (X0 X1 : Rows.Idx → Ideal .f32) (n l : ℕ) : Ideal .f32 :=
  ∑ r ∈ Finset.range 125, rowLoss X0 X1 (16000 * n + (128 * r + l))

/-- What a point stores, at a lane: the accumulator it read plus the point's sum. -/
theorem stored_point (c : Dev nD) (n : ℕ) (h : n < cfg0.N) (acc : Vec Ideal S1x128 .f32) (i : S1x128.Idx) :
    stored (F := Ideal) (iblk m c 0 ⟨n, h⟩) (iblk m c 1 ⟨n, h⟩) acc i
      = acc i + pointSum (V m c main_arg0) (V m c main_arg1) n (i 1).val := by
  obtain ⟨u, l, rfl⟩ : ∃ (u : Fin 1) (l : Fin 128), i = ix2 u l := ⟨i 0, i 1, eq_ix2 i⟩
  obtain rfl : u = 0 := Subsingleton.elim _ _
  refine (stored_apply _ _ acc l).trans (congrArg _ ?_)
  show _ = pointSum (V m c main_arg0) (V m c main_arg1) n l.val
  unfold pointSum
  rw [Finset.sum_range]
  refine Finset.sum_congr rfl fun r _ => ?_
  have hlt : 16000 * n + (128 * r.val + l.val) < 4000000 := row_lt ⟨n, h⟩ (rowOf r l)
  simp only [iblk0_apply, iblk1_apply]
  unfold rowLoss
  rw [dif_pos hlt]

/-- Lane by lane, the fold over the points b … b + j of a run is 0 plus the points' sums. -/
theorem fold_apply (c : Dev nD) (b j : ℕ) (h : b + j < cfg0.N) (i : S1x128.Idx) :
    Pipeline.accAt (resetAt m c) (stepAt m c) b j h i
      = 0 + ∑ s ∈ Finset.range (j + 1), pointSum (V m c main_arg0) (V m c main_arg1) (b + s) (i 1).val :=
  Pipeline.accAt_add_apply (resetAt m c) (stepAt m c) (fun _ => (0 : Ideal .f32))
    (fun n i => pointSum (V m c main_arg0) (V m c main_arg1) n (i 1).val) b j
    (fun hb i => by unfold resetAt; rw [stored_point, zeroRow_apply])
    (fun n hn acc i _ _ => by unfold stepAt; exact stored_point m c n hn acc i) j le_rfl h i

end Cert.KernelIdeal.Body

end
-- ==== Proof.KernelArray.lean ====
/-
  The kernel's output array and its result, at any float type.

  The output has one [1, 128] block per core, written back once, after the core's last point, where the body has copied the
  accumulator into it. So after the run row q of the [2, 1, 128] array is the accumulator after point 125·q + 124: the two
  blocks cover the array. The host then sums all 256 entries from zero: that is the program's result.
-/
import proofs.«116503_j18047452578536_2_alg».proof.Proof.Accumulated
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Body

open Idealize.ShloMosaic Idealize.ShloMosaic.TcCoe Idealize.ShloMosaic.ValueIdx Idealize.SL.Sem Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- Where the output window's block sits: point t writes core t / 125's row. -/
theorem index_out : ∀ t : Fin cfg0.N, win0_2.index t (0 : Fin 3) = t.val / 125 ∧ win0_2.index t (1 : Fin 3) = 0
    ∧ win0_2.index t (2 : Fin 3) = 0 :=
  (by decide +kernel : ∀ t : Fin grid0.N, win0_2.index t (0 : Fin 3) = t.val / 125 ∧ win0_2.index t (1 : Fin 3) = 0
    ∧ win0_2.index t (2 : Fin 3) = 0)

/-- Core q's last point is a point of the grid. -/
theorem last_lt (q : ℕ) (hq : q < 2) : 125 * q + 124 < cfg0.N := by have : cfg0.N = 250 := N_0; omega

/-- The output array after the run: row q is the accumulator after core q's last point. -/
def coreRows (c : Dev nD) : Vec F S2x1x128 .f32 := fun i =>
  accAfter m c (125 * (i 0).val + 124) (last_lt _ (i 0).isLt) (ix2 0 (i 2))

/-- A row [1, 128] given a unit axis in front reads, at y, the row at (0, y₂). -/
theorem pay2_apply (v : Vec F S1x128 .f32) (y : S1x1x128.Idx) : k0_pay2 v y = v (ix2 0 (y 2)) := by
  obtain ⟨a, b, l, rfl⟩ : ∃ (a : Fin 1) (b : Fin 1) (l : Fin 128), y = ix3 a b l := ⟨y 0, y 1, y 2, eq_ix3 y⟩
  obtain rfl : b = 0 := Subsingleton.elim _ _
  exact shapeCast_ab_1ab_apply v shapeCasts_S1x128_S1x1x128 a 0 l

/-- At a core's last point the output block holds the accumulator, a unit axis in front. -/
theorem out_last (c : Dev nD) (t : Fin cfg0.N) (h124 : t.val % 125 = 124) :
    (outsAt0 m c t.val t.isLt).1 = k0_pay2 (accAfter m c t.val t.isLt) := by
  have h0 : ¬t.val % 125 = 0 := by omega
  unfold accAfter
  rw [outsAt0_C m c t h0 h124]
  dsimp only
  rw [out_C, sout_C]

/-- The accumulator after a point, at a lane, named by equal numbers. -/
theorem accAfter_congr (c : Dev nD) {n n' : ℕ} (h : n < cfg0.N) (h' : n' < cfg0.N) (e : n = n') {i i' : S1x128.Idx}
    (ei : i = i') : accAfter m c n h i = accAfter m c n' h' i' := by
  subst e; subst ei; rfl

/-- What a write-back writes is its block of `coreRows`. -/
theorem flushed_eq (c : Dev nD) (t : Fin cfg0.N) (hf : (cfg0.win 2).flush t = true) :
    (dats m 0 c).flushed 2 t = ((cfg0.win 2).blk t).view.read (Elt F) (coreRows m c) := by
  have hN : cfg0.N = 250 := N_0
  have h124 : t.val % 125 = 124 := (flush0_2 t).mp hf
  obtain ⟨e0, e1, e2⟩ := index_out t
  show (cfg0.win 2).cut (grid0.coords t) ((dats m 0 c).after 2 t) = _
  rw [after0_2, out_last m c t h124]
  funext y
  show k0_pay2 (accAfter m c t.val t.isLt) y = coreRows m c (((cfg0.win 2).blk t).view.emb y)
  refine (pay2_apply _ y).trans ?_
  unfold coreRows
  refine accAfter_congr m c _ _ ?_ (congrArg (ix2 0) (Fin.ext ?_))
  · show t.val = 125 * (win0_2.index t (0 : Fin 3) * 1 + 1 * (y 0).val) + 124
    have hy : (y 0).val < 1 := (y 0).isLt
    omega
  · show (y 2).val = win0_2.index t (2 : Fin 3) * 128 + 1 * (y 2).val
    omega

/-- An index of the array is in point t's block iff each coordinate is in the block's range on its axis. -/
theorem mem_block (t : Fin cfg0.N) (i : S2x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v0).slice (win0_2.rect t)).set ↔ _
  rw [View.set_slice_whole, Rect.mem_set_unit]
  exact Iff.rfl

/-- Every index of the array is in the block some core's last point writes back. -/
theorem covered (i : S2x1x128.Idx) :
    ∃ t : Fin cfg0.N, (cfg0.win 2).flush t = true ∧ i ∈ ((cfg0.win 2).blk t).view.set := by
  have hN : cfg0.N = 250 := N_0
  have hi0 : (i 0).val < 2 := (i 0).isLt
  have hi1 : (i 1).val < 1 := (i 1).isLt
  have hi2 : (i 2).val < 128 := (i 2).isLt
  obtain ⟨e0, e1, e2⟩ := index_out ⟨125 * (i 0).val + 124, last_lt _ hi0⟩
  have e0' : win0_2.index ⟨125 * (i 0).val + 124, last_lt _ hi0⟩ (0 : Fin 3) = (125 * (i 0).val + 124) / 125 := e0
  refine ⟨⟨125 * (i 0).val + 124, last_lt _ hi0⟩, (flush0_2 _).mpr (by dsimp only; omega), ?_⟩
  rw [mem_block]
  intro a
  match a with
  | ⟨0, _⟩ =>
    show win0_2.index _ (0 : Fin 3) * 1 ≤ (i 0).val ∧ (i 0).val < win0_2.index _ (0 : Fin 3) * 1 + 1
    omega
  | ⟨1, _⟩ =>
    show win0_2.index _ (1 : Fin 3) * 1 ≤ (i 1).val ∧ (i 1).val < win0_2.index _ (1 : Fin 3) * 1 + 1
    omega
  | ⟨2, _⟩ =>
    show win0_2.index _ (2 : Fin 3) * 128 ≤ (i 2).val ∧ (i 2).val < win0_2.index _ (2 : Fin 3) * 128 + 128
    omega

/-- So the output array ends at `coreRows`. -/
theorem final_out (c : Dev nD) : (dats m 0 c).arrAt 2 cfg0.N = coreRows m c :=
  (dats m 0 c).arrAt_eq_of_cover 2 (coreRows m c) (flushed_eq m c) covered

/-- The program's result: all the entries of the output array summed from zero. -/
def result (c : Dev nD) : Vec F S_ .f32 :=
  Host.reduceAdd (coreRows m c) (constant S_ .f32 0x00000000#32) reducesTo_S2x1x128_S_d0_1_2 h_S_

/-- The host lines after the region compute it from the array the region leaves. -/
theorem tail_eq (c : Dev nD) : Pipeline.afterTail₀ cfgs (dats m) 0 (V0 m) [hostOps1] c main_v1 = result m c := by
  unfold Pipeline.afterTail₀
  show StableHlo.after hostOps1 _ (Proc.devRef .tc main_v1) = _
  after_results
  unfold result
  exact congrArg (fun A => Host.reduceAdd A (constant S_ .f32 0x00000000#32) reducesTo_S2x1x128_S_d0_1_2 h_S_)
    ((Pipeline.withArrays_arr spec0 launch0.win.arr_inj c _ _ 2).trans (final_out m c))

/-- The run, read: every weakly fair execution ends with the result buffer at `result` and the arguments unchanged. -/
theorem run : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Body

end
-- ==== Proof.KernelTotal.lean ====
/-
  The kernel's result, over the extended reals, is the total of the rows' losses.

  Row q, lane l of the output array is the fold over core q's run, which is 0 plus the sums of its 125 points at lane l. The
  host adds the 2 × 128 entries from zero. Grouped back by rows — 16000·(125·q + s) + 128·r + l runs over every row exactly
  once — that is the total.
-/
import proofs.«116503_j18047452578536_2_alg».proof.Proof.LaneSums
import proofs.«116503_j18047452578536_2_alg».proof.Proof.KernelArray

noncomputable section

namespace Cert.KernelIdeal.Body

open Idealize.ShloMosaic Idealize.ShloMosaic.TcCoe Idealize.ShloMosaic.ValueIdx Idealize.SL.Sem Cert.KernelIdeal Cert.KernelIdeal.Gen
open Cert.RowLoss

variable (m : (ℓ : Loc nD τ sig) → Buf (Elt Ideal) ℓ)

/-- Row q, lane l of the output array: the sums of core q's 125 points at lane l. -/
theorem coreRows_apply (c : Dev nD) (q : Fin 2) (l : Fin 128) :
    coreRows (F := Ideal) m c (ix3 q 0 l)
      = ∑ s ∈ Finset.range 125, pointSum (V m c main_arg0) (V m c main_arg1) (125 * q.val + s) l.val := by
  have hq := q.isLt
  have hd : (125 * q.val + 124) / 125 = q.val := by omega
  have hm : (125 * q.val + 124) % 125 = 124 := by omega
  show accAfter m c (125 * q.val + 124) (last_lt _ q.isLt) (ix2 0 l) = _
  rw [acc_eq_fold m c _ _ (by rw [hd, hm]; exact last_lt _ hq), fold_apply, zero_add]
  show ∑ s ∈ Finset.range ((125 * q.val + 124) % 125 + 1),
      pointSum (V m c main_arg0) (V m c main_arg1) (125 * ((125 * q.val + 124) / 125) + s) l.val = _
  rw [hd, hm]

/-- An index of the [2, 1, 128] array is its core and its lane. -/
def idx3Equiv : S2x1x128.Idx ≃ Fin 2 × Fin 128 where
  toFun j := (j 0, j 2)
  invFun p := ix3 p.1 0 p.2
  left_inv j := funext fun a => by
    match a with
    | ⟨0, _⟩ => rfl
    | ⟨1, _⟩ => exact Fin.ext (by have h : (j 1).val < 1 := (j 1).isLt; show (0 : ℕ) = (j 1).val; omega)
    | ⟨2, _⟩ => rfl
  right_inv _ := rfl

/-- The kernel's result is the total. -/
theorem result_eq (c : Dev nD) (i : S_.Idx) :
    result (F := Ideal) m c i = total (V m c main_arg0) (V m c main_arg1) := by
  unfold result
  simp only [Host.reduceAdd, Ideal.hostReduceAdd_def]
  refine (Ideal.hostReduceAdd_total reducesTo_S2x1x128_S_d0_1_2 (fun b => b.elim0) _ _ i).trans ?_
  show Ideal.ofBits .f32 0x00000000#32 + _ = _
  rw [Ideal.ofBits_zero_f32, zero_add]
  refine (Equiv.sum_comp idx3Equiv.symm _).symm.trans ?_
  rw [Fintype.sum_prod_type]
  unfold total
  rw [← sum_by_lanes, Finset.sum_range]
  refine Finset.sum_congr rfl fun q _ => ?_
  rw [Finset.sum_range]
  refine Finset.sum_congr rfl fun l _ => ?_
  show coreRows (F := Ideal) m c (ix3 q 0 l) = _
  rw [coreRows_apply]
  rfl

end Cert.KernelIdeal.Body

end
-- ==== Proof.RefValue.lean ====
/-
  The reference, read: its result is the total of the rows' losses.

  The reference cuts the five columns out of each argument (a slice and a reshape each; the two means through a slice of
  two columns first), runs the chain of operations on the resulting vectors of 4,000,000 entries, entry by entry, and sums
  the loss vector from zero. So entry n of its loss vector is the chain, in the reference's spelling, on row n of the two
  arguments; over the extended reals that is the kernel's spelling on the same row, and the result is the total.
-/
import proofs.«116503_j18047452578536_2_alg».proof.Proof.Gen.ReferenceIdeal.Read
import proofs.«116503_j18047452578536_2_alg».proof.Proof.Rows

noncomputable section

namespace Cert.ReferenceIdeal.RefValue

open Idealize.ShloMosaic Idealize.ShloMosaic.ValueIdx Cert.ReferenceIdeal Cert.ReferenceIdeal.Read Cert.RowLoss

/-! ## Which entry of an argument each column vector reads at n: a slice then a reshape land on (n, k) -/

theorem c2a (n : Fin 4000000) : idx_main_v0 (idx_main_v1 (ix1 n)) = ix2 n 2 :=
  funext fun a => Fin.ext (by match a with | ⟨0, _⟩ => exact Nat.div_one _ | ⟨1, _⟩ => rfl)
theorem c3a (n : Fin 4000000) : idx_main_v2 (idx_main_v3 (ix1 n)) = ix2 n 3 :=
  funext fun a => Fin.ext (by match a with | ⟨0, _⟩ => exact Nat.div_one _ | ⟨1, _⟩ => rfl)
theorem c2b (n : Fin 4000000) : idx_main_v5 (idx_main_v6 (ix1 n)) = ix2 n 2 :=
  funext fun a => Fin.ext (by match a with | ⟨0, _⟩ => exact Nat.div_one _ | ⟨1, _⟩ => rfl)
theorem c3b (n : Fin 4000000) : idx_main_v7 (idx_main_v8 (ix1 n)) = ix2 n 3 :=
  funext fun a => Fin.ext (by match a with | ⟨0, _⟩ => exact Nat.div_one _ | ⟨1, _⟩ => rfl)
theorem c4 (n : Fin 4000000) : idx_main_v10 (idx_main_v11 (ix1 n)) = ix2 n 4 :=
  funext fun a => Fin.ext (by match a with | ⟨0, _⟩ => exact Nat.div_one _ | ⟨1, _⟩ => rfl)
theorem c0 (n : Fin 4000000) : idx_main_v31 (idx_main_v75 (idx_main_v76 (ix1 n))) = ix2 n 0 :=
  funext fun a => Fin.ext (by match a with | ⟨0, _⟩ => exact Nat.div_one _ | ⟨1, _⟩ => rfl)
theorem c1 (n : Fin 4000000) : idx_main_v31 (idx_main_v80 (idx_main_v81 (ix1 n))) = ix2 n 1 :=
  funext fun a => Fin.ext (by match a with | ⟨0, _⟩ => exact Nat.div_one _ | ⟨1, _⟩ => rfl)
theorem d2a (n : Fin 4000000) : idx_main_v32 (idx_main_v33 (ix1 n)) = ix2 n 2 :=
  funext fun a => Fin.ext (by match a with | ⟨0, _⟩ => exact Nat.div_one _ | ⟨1, _⟩ => rfl)
theorem d3a (n : Fin 4000000) : idx_main_v34 (idx_main_v35 (ix1 n)) = ix2 n 3 :=
  funext fun a => Fin.ext (by match a with | ⟨0, _⟩ => exact Nat.div_one _ | ⟨1, _⟩ => rfl)
theorem d2b (n : Fin 4000000) : idx_main_v37 (idx_main_v38 (ix1 n)) = ix2 n 2 :=
  funext fun a => Fin.ext (by match a with | ⟨0, _⟩ => exact Nat.div_one _ | ⟨1, _⟩ => rfl)
theorem d3b (n : Fin 4000000) : idx_main_v39 (idx_main_v40 (ix1 n)) = ix2 n 3 :=
  funext fun a => Fin.ext (by match a with | ⟨0, _⟩ => exact Nat.div_one _ | ⟨1, _⟩ => rfl)
theorem d4 (n : Fin 4000000) : idx_main_v42 (idx_main_v43 (ix1 n)) = ix2 n 4 :=
  funext fun a => Fin.ext (by match a with | ⟨0, _⟩ => exact Nat.div_one _ | ⟨1, _⟩ => rfl)
theorem d0 (n : Fin 4000000) : idx_main_v63 (idx_main_v77 (idx_main_v78 (ix1 n))) = ix2 n 0 :=
  funext fun a => Fin.ext (by match a with | ⟨0, _⟩ => exact Nat.div_one _ | ⟨1, _⟩ => rfl)
theorem d1 (n : Fin 4000000) : idx_main_v63 (idx_main_v82 (idx_main_v83 (ix1 n))) = ix2 n 1 :=
  funext fun a => Fin.ext (by match a with | ⟨0, _⟩ => exact Nat.div_one _ | ⟨1, _⟩ => rfl)

variable {F : FTy → Type} [FloatOps F]

/-- Entry n of the reference's loss vector is the chain, in the reference's spelling, on row n of the two arguments. -/
theorem losses_apply (x0 x1 : (⟨S4000000x5, .f32⟩ : BufTy).Contents (Elt F)) (n : Fin 4000000) :
    val_main_v125 (F := F) x0 x1 (ix1 n)
      = lossR (x0 (ix2 n 0)) (x0 (ix2 n 1)) (x0 (ix2 n 2)) (x0 (ix2 n 3)) (x0 (ix2 n 4)) (x1 (ix2 n 0)) (x1 (ix2 n 1)) (x1 (ix2 n 2)) (x1 (ix2 n 3)) (x1 (ix2 n 4)) := by
  simp only [
    val_main_v0_apply, val_main_v1_apply, val_main_v2_apply, val_main_v3_apply, val_main_v4_apply, val_main_v5_apply,
    val_main_v6_apply, val_main_v7_apply, val_main_v8_apply, val_main_v9_apply, val_main_v10_apply,
    val_main_v11_apply, val_main_v12_apply, val_main_v13_apply, val_main_v14_apply, val_main_v15_apply,
    val_main_cst_apply, val_main_v16_apply, val_main_v17_apply, val_main_v18_apply, val_main_cst_0_apply,
    val_main_v19_apply, val_main_v20_apply, val_main_v21_apply, val_main_v22_apply, val_main_v23_apply,
    val_main_v24_apply, val_main_v25_apply, val_main_v26_apply, val_main_v27_apply, val_main_v28_apply,
    val_main_v29_apply, val_main_v30_apply, val_main_v31_apply, val_main_v32_apply, val_main_v33_apply,
    val_main_v34_apply, val_main_v35_apply, val_main_v36_apply, val_main_v37_apply, val_main_v38_apply,
    val_main_v39_apply, val_main_v40_apply, val_main_v41_apply, val_main_v42_apply, val_main_v43_apply,
    val_main_v44_apply, val_main_v45_apply, val_main_v46_apply, val_main_v47_apply, val_main_cst_1_apply,
    val_main_v48_apply, val_main_v49_apply, val_main_v50_apply, val_main_cst_2_apply, val_main_v51_apply,
    val_main_v52_apply, val_main_v53_apply, val_main_v54_apply, val_main_v55_apply, val_main_v56_apply,
    val_main_v57_apply, val_main_v58_apply, val_main_v59_apply, val_main_v60_apply, val_main_v61_apply,
    val_main_v62_apply, val_main_v63_apply, val_main_cst_3_apply, val_main_v64_apply, val_main_v65_apply,
    val_main_cst_4_apply, val_main_v66_apply, val_main_v67_apply, val_main_cst_5_apply, val_main_v68_apply,
    val_main_v69_apply, val_main_cst_6_apply, val_main_v70_apply, val_main_v71_apply, val_main_v72_apply,
    val_main_v73_apply, val_main_v74_apply, val_main_v75_apply, val_main_v76_apply, val_main_v77_apply,
    val_main_v78_apply, val_main_v79_apply, val_main_v80_apply, val_main_v81_apply, val_main_v82_apply,
    val_main_v83_apply, val_main_v84_apply, val_main_v85_apply, val_main_v86_apply, val_main_v87_apply,
    val_main_v88_apply, val_main_v89_apply, val_main_cst_7_apply, val_main_v90_apply, val_main_v91_apply,
    val_main_v92_apply, val_main_v93_apply, val_main_v94_apply, val_main_v95_apply, val_main_v96_apply,
    val_main_v97_apply, val_main_v98_apply, val_main_cst_8_apply, val_main_v99_apply, val_main_v100_apply,
    val_main_v101_apply, val_main_v102_apply, val_main_v103_apply, val_main_v104_apply, val_main_v105_apply,
    val_main_v106_apply, val_main_v107_apply, val_main_cst_9_apply, val_main_v108_apply, val_main_v109_apply,
    val_main_v110_apply, val_main_v111_apply, val_main_v112_apply, val_main_cst_10_apply, val_main_v113_apply,
    val_main_v114_apply, val_main_v115_apply, val_main_v116_apply, val_main_cst_11_apply, val_main_cst_12_apply,
    val_main_call0_v0_apply, val_main_call0_v1_apply, val_main_call0_v2_apply, val_main_call0_v3_apply,
    val_main_call0_v4_apply, val_main_v117_apply, val_main_v118_apply, val_main_v119_apply, val_main_cst_13_apply,
    val_main_v120_apply, val_main_v121_apply, val_main_cst_14_apply, val_main_v122_apply, val_main_v123_apply,
    val_main_cst_15_apply, val_main_v124_apply, val_main_v125_apply, val_main_cst_16_apply]
  simp only [c2a, c3a, c2b, c3b, c4, c0, c1, d2a, d3a, d2b, d3b, d4, d0, d1]
  rfl

/-- An index of a vector of 4,000,000 entries is its one coordinate. -/
def idx1Equiv : S4000000.Idx ≃ Fin 4000000 where
  toFun j := j 0
  invFun := ix1
  left_inv j := (eq_ix1 j).symm
  right_inv _ := rfl

/-- The reference's result, over the extended reals, is the total of the rows' losses. -/
theorem result_eq (x0 x1 : (⟨S4000000x5, .f32⟩ : BufTy).Contents (Elt Ideal)) (i : S_.Idx) :
    val_main_v126 (F := Ideal) x0 x1 i = total x0 x1 := by
  rw [val_main_v126_apply]
  show Ideal.ofBits .f32 0x00000000#32 + _ = _
  rw [Ideal.ofBits_zero_f32, zero_add]
  unfold total
  refine (Equiv.sum_comp idx1Equiv.symm _).symm.trans ?_
  rw [Finset.sum_range]
  refine Finset.sum_congr rfl fun n _ => ?_
  show val_main_v125 (F := Ideal) x0 x1 (ix1 n) = rowLoss x0 x1 n.val
  rw [losses_apply, ← lossK_eq_lossR]
  unfold rowLoss
  rw [dif_pos n.isLt]

end Cert.ReferenceIdeal.RefValue

end
-- ==== Proof.lean ====
/-
  The Kalman-filter IoU loss of 4,000,000 pairs of rotated boxes, summed: a two-core blocked kernel against the plain sum.

  Each row (cx, cy, w, h, angle) of the two arguments is a rotated box, read as a Gaussian; the loss of a pair of rows is
  max(1 − exp(−clip(term₁ + term₂, −100, 100)), 0) with term₁ the eighth of the squared distance of the means in the
  summed covariance and term₂ the half log-determinant of that sum less the quarter of the two boxes' log-determinants
  (Proof/RowLoss.lean writes the chain once). The reference evaluates it on the 4,000,000 rows and adds the results from
  zero. The kernel walks 2 cores × 125 points; a point loads 16000 rows of each argument, lays each of the five columns out
  as a 125 × 128 slab, evaluates the chain entry by entry on the slabs, sums the loss slab along its 125 rows and adds
  the 128 lane sums into an accumulator that is zeroed at a core's first point and copied out after its last; the host
  adds the 2 × 128 lane totals from zero.

  Over the extended reals the two programs' chains are one function of the row — the kernel's product with ½ is the
  reference's quotient by 2 and its 0 − x is −x at every extended real, and the two units' cosine, sine, logarithm,
  exponential and quotient are the same functions there (Proof/RowLoss.lean) — and both results are the sum of that
  function over the rows: the reference's in one stretch (Proof/RefValue.lean), the kernel's core by core, lane by lane,
  point by point and slab row by slab row, row 16000·(125·q + s) + 128·r + l being met exactly once (Proof/SlabValue.lean,
  Proof/CaseValues.lean, Proof/Accumulated.lean, Proof/LaneSums.lean, Proof/KernelArray.lean, Proof/KernelTotal.lean,
  Proof/Rows.lean). Addition of extended reals is commutative and associative, so the grouping does not matter, and no
  finiteness of the inputs is used. The idealization rewrote nothing, so the kernel is its own idealization.
-/
import proofs.«116503_j18047452578536_2_alg».proof.Defs
import proofs.«116503_j18047452578536_2_alg».proof.Proof.Gen.Kernel
import proofs.«116503_j18047452578536_2_alg».proof.Proof.Gen.Kernel.Skeleton
import proofs.«116503_j18047452578536_2_alg».proof.Proof.Gen.Kernel.Launch
import proofs.«116503_j18047452578536_2_alg».proof.Proof.Gen.Kernel.Points
import proofs.«116503_j18047452578536_2_alg».proof.Proof.Gen.Kernel.Frame
import proofs.«116503_j18047452578536_2_alg».proof.Proof.Gen.KernelIdeal
import proofs.«116503_j18047452578536_2_alg».proof.Proof.Gen.KernelIdeal.Skeleton
import proofs.«116503_j18047452578536_2_alg».proof.Proof.Gen.KernelIdeal.Launch
import proofs.«116503_j18047452578536_2_alg».proof.Proof.Gen.KernelIdeal.Points
import proofs.«116503_j18047452578536_2_alg».proof.Proof.Gen.KernelIdeal.Frame
import proofs.«116503_j18047452578536_2_alg».proof.Proof.Gen.ReferenceIdeal
import proofs.«116503_j18047452578536_2_alg».proof.Proof.Gen.Pre_finite_inputs
import proofs.«116503_j18047452578536_2_alg».proof.Proof.Gen.ReferenceIdeal.Run
import proofs.«116503_j18047452578536_2_alg».proof.Proof.Gen.ReferenceIdeal.Read
import proofs.«116503_j18047452578536_2_alg».proof.Proof.KernelTotal
import proofs.«116503_j18047452578536_2_alg».proof.Proof.RefValue
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the two arguments both programs end with the total of the rows' losses. -/
theorem algebraic : Cert.algebraic_KernelIdeal_ReferenceIdeal := by
  intro m ρ m' ρ' _ hagree
  refine ⟨fun c => Cert.KernelIdeal.Body.result (F := Ideal) m c, Cert.KernelIdeal.Body.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v126_eq, (hagree c).1, (hagree c).2]
  funext i
  rw [Cert.ReferenceIdeal.RefValue.result_eq]
  exact (Cert.KernelIdeal.Body.result_eq m c i).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
